-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x30 : Shape := ⟨2, ![2000000, 30]⟩
abbrev S_ : Shape := ⟨0, ![]⟩

class Facts : Prop where
  bcast_S_S2000000x30 : S_.BroadcastsInDim S2000000x30 (![] : Fin 0 → Fin S2000000x30.rank)
  reducesTo_S2000000x30_S_d0_1 : S2000000x30.ReducesTo [0, 1] S_
  h_S_ : 0 < S_.numel

variable [Facts]

def fn {F : FTy → Type} [FloatOps F] (main_arg0 : FVec F S2000000x30 .f32) : IVec S_ 1 :=
  let main_v0 : FVec F S2000000x30 .f32 := Host.absf main_arg0
  let main_cst : FVec F S_ .f32 := constant S_ .f32 0x7F800000#32
  let main_v1 : FVec F S2000000x30 .f32 := broadcastInDim S2000000x30 ![] bcast_S_S2000000x30 main_cst
  let main_v2 : IVec S2000000x30 1 := cmpf .olt main_v0 main_v1
  let main_c : IVec S_ 1 := constantI S_ 1 1#1
  let main_v3 : IVec S_ 1 := (fun x v => Host.reduce IntOp.andi x v reducesTo_S2000000x30_S_d0_1 h_S_) main_v2 main_c
  main_v3
-- ==== Kernel.lean ====
abbrev S2000000x30 : Shape := ⟨2, ![2000000, 30]⟩
abbrev S2000000x10x3 : Shape := ⟨3, ![2000000, 10, 3]⟩
abbrev S2000000x3x10 : Shape := ⟨3, ![2000000, 3, 10]⟩
abbrev S2000000x70 : Shape := ⟨2, ![2000000, 70]⟩
abbrev S2000000x7x10 : Shape := ⟨3, ![2000000, 7, 10]⟩
abbrev S2000000x10x7 : Shape := ⟨3, ![2000000, 10, 7]⟩
abbrev S5000x30 : Shape := ⟨2, ![5000, 30]⟩
abbrev S5000x70 : Shape := ⟨2, ![5000, 70]⟩
abbrev S5000x10 : Shape := ⟨2, ![5000, 10]⟩

abbrev nBuf : Space → Nat
  | .hbm => 8
  | .vmem => 4
  | .smem => 0
  | _ => 0

abbrev bufTy : (tb : Table) → Fin (tcTables nBuf tb) → BufTy
  | .hbm, ⟨0, _⟩ => ⟨S2000000x30, .f32⟩
  | .hbm, ⟨1, _⟩ => ⟨S2000000x10x3, .f32⟩
  | .hbm, ⟨2, _⟩ => ⟨S2000000x3x10, .f32⟩
  | .hbm, ⟨3, _⟩ => ⟨S2000000x30, .f32⟩
  | .hbm, ⟨4, _⟩ => ⟨S2000000x70, .f32⟩
  | .hbm, ⟨5, _⟩ => ⟨S2000000x7x10, .f32⟩
  | .hbm, ⟨6, _⟩ => ⟨S2000000x10x7, .f32⟩
  | .hbm, ⟨7, _⟩ => ⟨S2000000x70, .f32⟩
  | .local _ .vmem, ⟨0, _⟩ => ⟨S5000x30, .f32⟩
  | .local _ .vmem, ⟨1, _⟩ => ⟨S5000x30, .f32⟩
  | .local _ .vmem, ⟨2, _⟩ => ⟨S5000x70, .f32⟩
  | .local _ .vmem, ⟨3, _⟩ => ⟨S5000x70, .f32⟩
  | _, _ => ⟨S2000000x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_call0_v5 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x70 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S2000000x30_S2000000x10x3 : S2000000x30.ShapeCasts S2000000x10x3
  transposes_S2000000x10x3_S2000000x3x10_0_2_1 : S2000000x10x3.Transposes [0, 2, 1] S2000000x3x10
  shapeCasts_S2000000x3x10_S2000000x30 : S2000000x3x10.ShapeCasts S2000000x30
  shapeCasts_S2000000x70_S2000000x7x10 : S2000000x70.ShapeCasts S2000000x7x10
  transposes_S2000000x7x10_S2000000x10x7_0_2_1 : S2000000x7x10.Transposes [0, 2, 1] S2000000x10x7
  shapeCasts_S2000000x10x7_S2000000x70 : S2000000x10x7.ShapeCasts S2000000x70
  inb_S5000x30_S5000x10_0_0 : ∀ a, (![0, 0] : Fin 2 → Nat) a + S5000x10.size a ≤ S5000x30.size a
  h_S5000x10 : 0 < S5000x10.numel
  shapeCasts_S5000x10_S5000x10 : S5000x10.ShapeCasts S5000x10
  inb_S5000x30_S5000x10_0_10 : ∀ a, (![0, 10] : Fin 2 → Nat) a + S5000x10.size a ≤ S5000x30.size a
  inb_S5000x30_S5000x10_0_20 : ∀ a, (![0, 20] : Fin 2 → Nat) a + S5000x10.size a ≤ S5000x30.size a
  inb_S5000x70_S5000x10_0_0 : ∀ a, (![0, 0] : Fin 2 → Nat) a + S5000x10.size a ≤ S5000x70.size a
  inb_S5000x70_S5000x10_0_10 : ∀ a, (![0, 10] : Fin 2 → Nat) a + S5000x10.size a ≤ S5000x70.size a
  inb_S5000x70_S5000x10_0_20 : ∀ a, (![0, 20] : Fin 2 → Nat) a + S5000x10.size a ≤ S5000x70.size a
  inb_S5000x70_S5000x10_0_30 : ∀ a, (![0, 30] : Fin 2 → Nat) a + S5000x10.size a ≤ S5000x70.size a
  inb_S5000x70_S5000x10_0_40 : ∀ a, (![0, 40] : Fin 2 → Nat) a + S5000x10.size a ≤ S5000x70.size a
  inb_S5000x70_S5000x10_0_50 : ∀ a, (![0, 50] : Fin 2 → Nat) a + S5000x10.size a ≤ S5000x70.size a
  inb_S5000x70_S5000x10_0_60 : ∀ a, (![0, 60] : Fin 2 → Nat) a + S5000x10.size a ≤ S5000x70.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x30.size a ≤ S2000000x30.size a
  hwx0_0 : ∀ i : grid0.Coords, EltTy.bits .f32 = 32 ∨ (Rect.block (s := S2000000x30) S5000x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x70.size a ≤ S2000000x70.size a
  hwx0_1 : ∀ i : grid0.Coords, EltTy.bits .f32 = 32 ∨ (Rect.block (s := S2000000x70) S5000x70.size (cc0_transform_1 i) (hinb0_1 i)).WholeWords (EltTy.packing .f32)

variable [Facts₀]

abbrev win0_0 : Pipeline.Window sig grid0 :=
  Pipeline.Window.ofSpec (Memref.whole main_call0_v2) S5000x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S5000x70.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2000000x30 : Shape := ⟨2, ![2000000, 30]⟩
abbrev S2000000x10x3 : Shape := ⟨3, ![2000000, 10, 3]⟩
abbrev S2000000x10x1 : Shape := ⟨3, ![2000000, 10, 1]⟩
abbrev S2000000x10 : Shape := ⟨2, ![2000000, 10]⟩
abbrev S_ : Shape := ⟨0, ![]⟩
abbrev S2000000x10x7 : Shape := ⟨3, ![2000000, 10, 7]⟩
abbrev S2000000x70 : Shape := ⟨2, ![2000000, 70]⟩

abbrev nBuf : Space → Nat
  | .hbm => 59
  | .vmem => 0
  | .smem => 0
  | _ => 0

abbrev bufTy : (tb : Table) → Fin (tcTables nBuf tb) → BufTy
  | .hbm, ⟨0, _⟩ => ⟨S2000000x30, .f32⟩
  | .hbm, ⟨1, _⟩ => ⟨S2000000x10x3, .f32⟩
  | .hbm, ⟨2, _⟩ => ⟨S2000000x10x1, .f32⟩
  | .hbm, ⟨3, _⟩ => ⟨S2000000x10, .f32⟩
  | .hbm, ⟨4, _⟩ => ⟨S2000000x10x1, .f32⟩
  | .hbm, ⟨5, _⟩ => ⟨S2000000x10, .f32⟩
  | .hbm, ⟨6, _⟩ => ⟨S2000000x10x1, .f32⟩
  | .hbm, ⟨7, _⟩ => ⟨S2000000x10, .f32⟩
  | .hbm, ⟨8, _⟩ => ⟨S2000000x10, .f32⟩
  | .hbm, ⟨9, _⟩ => ⟨S2000000x10, .f32⟩
  | .hbm, ⟨10, _⟩ => ⟨S2000000x10, .f32⟩
  | .hbm, ⟨11, _⟩ => ⟨S2000000x10, .f32⟩
  | .hbm, ⟨12, _⟩ => ⟨S2000000x10, .f32⟩
  | .hbm, ⟨13, _⟩ => ⟨S2000000x10, .f32⟩
  | .hbm, ⟨14, _⟩ => ⟨S2000000x10, .f32⟩
  | .hbm, ⟨15, _⟩ => ⟨S2000000x10, .f32⟩
  | .hbm, ⟨16, _⟩ => ⟨S_, .f32⟩
  | .hbm, ⟨17, _⟩ => ⟨S2000000x10, .f32⟩
  | .hbm, ⟨18, _⟩ => ⟨S2000000x10, .f32⟩
  | .hbm, ⟨19, _⟩ => ⟨S2000000x10, .f32⟩
  | .hbm, ⟨20, _⟩ => ⟨S2000000x10, .f32⟩
  | .hbm, ⟨21, _⟩ => ⟨S2000000x10, .f32⟩
  | .hbm, ⟨22, _⟩ => ⟨S2000000x10, .f32⟩
  | .hbm, ⟨23, _⟩ => ⟨S_, .f32⟩
  | .hbm, ⟨24, _⟩ => ⟨S2000000x10, .f32⟩
  | .hbm, ⟨25, _⟩ => ⟨S2000000x10, .f32⟩
  | .hbm, ⟨26, _⟩ => ⟨S2000000x10, .f32⟩
  | .hbm, ⟨27, _⟩ => ⟨S2000000x10, .f32⟩
  | .hbm, ⟨28, _⟩ => ⟨S_, .f32⟩
  | .hbm, ⟨29, _⟩ => ⟨S2000000x10, .f32⟩
  | .hbm, ⟨30, _⟩ => ⟨S2000000x10, .f32⟩
  | .hbm, ⟨31, _⟩ => ⟨S_, .f32⟩
  | .hbm, ⟨32, _⟩ => ⟨S2000000x10, .f32⟩
  | .hbm, ⟨33, _⟩ => ⟨S2000000x10, .f32⟩
  | .hbm, ⟨34, _⟩ => ⟨S2000000x10, .f32⟩
  | .hbm, ⟨35, _⟩ => ⟨S2000000x10, .f32⟩
  | .hbm, ⟨36, _⟩ => ⟨S_, .f32⟩
  | .hbm, ⟨37, _⟩ => ⟨S2000000x10, .f32⟩
  | .hbm, ⟨38, _⟩ => ⟨S2000000x10, .f32⟩
  | .hbm, ⟨39, _⟩ => ⟨S2000000x10, .f32⟩
  | .hbm, ⟨40, _⟩ => ⟨S2000000x10, .f32⟩
  | .hbm, ⟨41, _⟩ => ⟨S2000000x10, .f32⟩
  | .hbm, ⟨42, _⟩ => ⟨S_, .f32⟩
  | .hbm, ⟨43, _⟩ => ⟨S2000000x10, .f32⟩
  | .hbm, ⟨44, _⟩ => ⟨S2000000x10, .f32⟩
  | .hbm, ⟨45, _⟩ => ⟨S2000000x10, .f32⟩
  | .hbm, ⟨46, _⟩ => ⟨S2000000x10, .f32⟩
  | .hbm, ⟨47, _⟩ => ⟨S2000000x10x1, .f32⟩
  | .hbm, ⟨48, _⟩ => ⟨S2000000x10x1, .f32⟩
  | .hbm, ⟨49, _⟩ => ⟨S2000000x10x1, .f32⟩
  | .hbm, ⟨50, _⟩ => ⟨S2000000x10x1, .f32⟩
  | .hbm, ⟨51, _⟩ => ⟨S2000000x10x1, .f32⟩
  | .hbm, ⟨52, _⟩ => ⟨S2000000x10x1, .f32⟩
  | .hbm, ⟨53, _⟩ => ⟨S2000000x10x1, .f32⟩
  | .hbm, ⟨54, _⟩ => ⟨S2000000x10x7, .f32⟩
  | .hbm, ⟨55, _⟩ => ⟨S2000000x10x1, .f32⟩
  | .hbm, ⟨56, _⟩ => ⟨S2000000x10x7, .f32⟩
  | .hbm, ⟨57, _⟩ => ⟨S2000000x10x7, .f32⟩
  | .hbm, ⟨58, _⟩ => ⟨S2000000x70, .f32⟩
  | _, _ => ⟨S2000000x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_cst : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst_0 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_1 : Ref sig .tc := ⟨.hbm, 28, rfl⟩
abbrev main_v25 : Ref sig .tc := ⟨.hbm, 29, rfl⟩
abbrev main_v26 : Ref sig .tc := ⟨.hbm, 30, rfl⟩
abbrev main_cst_2 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_3 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_4 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩

abbrev nD : Nat := 1
abbrev τ : Topo := Topo.v7x

variable {F : FTy → Type} [FloatOps F]

class Facts₀ : Prop where
  shapeCasts_S2000000x30_S2000000x10x3 : S2000000x30.ShapeCasts S2000000x10x3
  slices_S2000000x10x3_S2000000x10x1_0_0_0 : S2000000x10x3.Slices ![0, 0, 0] S2000000x10x1
  shapeCasts_S2000000x10x1_S2000000x10 : S2000000x10x1.ShapeCasts S2000000x10
  slices_S2000000x10x3_S2000000x10x1_0_0_1 : S2000000x10x3.Slices ![0, 0, 1] S2000000x10x1
  slices_S2000000x10x3_S2000000x10x1_0_0_2 : S2000000x10x3.Slices ![0, 0, 2] S2000000x10x1
  bcast_S_S2000000x10 : S_.BroadcastsInDim S2000000x10 (![] : Fin 0 → Fin S2000000x10.rank)
  bcast_S2000000x10_S2000000x10x1_0_1 : S2000000x10.BroadcastsInDim S2000000x10x1 (![0, 1] : Fin 2 → Fin S2000000x10x1.rank)
  concatenates_S2000000x10x1_S2000000x10x1_S2000000x10x1_S2000000x10x1_S2000000x10x1_S2000000x10x1_S2000000x10x1_S2000000x10x7_d2 : Shape.Concatenates [S2000000x10x1, S2000000x10x1, S2000000x10x1, S2000000x10x1, S2000000x10x1, S2000000x10x1, S2000000x10x1] S2000000x10x7 2
  bcast_S2000000x10x1_S2000000x10x7_0_1_2 : S2000000x10x1.BroadcastsInDim S2000000x10x7 (![0, 1, 2] : Fin 3 → Fin S2000000x10x7.rank)
  shapeCasts_S2000000x10x7_S2000000x70 : S2000000x10x7.ShapeCasts S2000000x70

variable [Facts₀]

class Facts : Prop extends Facts₀ where

variable [Facts]
-- ==== Proof.Harmonics.lean ====
/-
  The seven third-order harmonic polynomials of a point, each over the cube of its distance from the origin,
  as ONE function of the array of coordinates.

  A row of the coordinate array holds ten points: point `a` has its x, y, z at columns `3a`, `3a + 1`, `3a + 2`.
  A row of the result holds, for each point, seven numbers: component `k` of point `a` at column `7a + k`. With
  `s = x² + y² + z²` the common denominator is `√s · s`, the cube of the distance, and the seven numerators are
  the cubic polynomials

      (3x² − y²)·y,   x·y·z,   (4z² − (x² − y²))·y,   (2z² − 3(x² − y²))·z,   (4z² − (x² − y²))·x,   z·(x² − y²),   x·(x² − 3y²),

  every sum, difference, product, root and quotient the extended reals' own, the three numerals the numbers their
  float words denote. No law of arithmetic is used anywhere below this file: two programs are each shown to compute
  exactly these expressions, operation for operation, so nothing is asked of the inputs (the quotient `0 / 0` at the
  origin is the same conventional value on both sides).
-/
import Idealize.ShloMosaic.PureOps.Ideal
import Idealize.ShloMosaic.Lib.ValueIdx

noncomputable section

namespace Cert.Harmonics

open Idealize.ShloMosaic Idealize.ShloMosaic.ValueIdx

/-- The numerals 2, 3 and 4, as the extended reals their single-precision words denote. -/
abbrev two : EReal := Ideal.ofBits .f32 0x40000000#32
abbrev three : EReal := Ideal.ofBits .f32 0x40400000#32
abbrev four : EReal := Ideal.ofBits .f32 0x40800000#32

/-- The cube of the distance from the origin: `√s · s` with `s = (x² + y²) + z²`. -/
def radiusCubed (x y z : EReal) : EReal :=
  Ideal.sqrt (x * x + y * y + z * z) * (x * x + y * y + z * z)

/-- The seven cubic numerators, by component. -/
def numerator : Nat → EReal → EReal → EReal → EReal
  | 0, x, y, _ => (three * (x * x) - y * y) * y
  | 1, x, y, z => x * y * z
  | 2, x, y, z => (four * (z * z) - (x * x - y * y)) * y
  | 3, x, y, z => (two * (z * z) - three * (x * x - y * y)) * z
  | 4, x, y, z => (four * (z * z) - (x * x - y * y)) * x
  | 5, x, y, z => z * (x * x - y * y)
  | _, x, y, _ => x * (x * x - three * (y * y))

/-- Component `k` of a point: its numerator over the cube of the distance. -/
def harmonic (k : Nat) (x y z : EReal) : EReal :=
  Ideal.div (numerator k x y z) (radiusCubed x y z)

/-- Rows of ten points, three coordinates each; rows of ten points, seven components each. -/
abbrev Coords : Shape := ⟨2, ![2000000, 30]⟩
abbrev Comps : Shape := ⟨2, ![2000000, 70]⟩

/-- The result at row `b`, column `q`: component `q mod 7` of point `q / 7` of the row. -/
def resultAt (X : Coords.Idx → EReal) (b : Fin 2000000) (q : Fin 70) : EReal :=
  harmonic (q.val % 7)
    (X (ix2 b (⟨3 * (q.val / 7), by omega⟩ : Fin 30)))
    (X (ix2 b (⟨3 * (q.val / 7) + 1, by omega⟩ : Fin 30)))
    (X (ix2 b (⟨3 * (q.val / 7) + 2, by omega⟩ : Fin 30)))

/-- The whole result array as one function of the coordinate array. -/
def result (X : Coords.Idx → EReal) : Comps.Idx → EReal := fun i => resultAt X (i 0) (i 1)

theorem result_ix2 (X : Coords.Idx → EReal) (b : Fin 2000000) (q : Fin 70) :
    result X (ix2 b q) = resultAt X b q := rfl

end Cert.Harmonics

end
-- ==== Proof.BlockValue.lean ====
/-
  What one grid point's body leaves in its output block, as one function of its input block.

  The body reads its 5000-row input block as three tables of ten columns — columns 0–9 the x's of the row's ten
  points, 10–19 their y's, 20–29 their z's — and stores seven tables of ten columns side by side: columns
  `10k … 10k + 9` of the output block hold component `k` of the ten points. So the output block at row `r`, column `q` is
  component `q / 10` of point `q mod 10`, computed from columns `q mod 10`, `10 + q mod 10`, `20 + q mod 10` of row `r`
  of the input block. Each of the seven stores is one tile of that single function, and the seven tiles cover the block.
-/
import proofs.«141521_j81965155877406_2_alg».proof.Proof.Gen.KernelIdeal.Frame
import proofs.«141521_j81965155877406_2_alg».proof.Proof.Harmonics
import Idealize.ShloMosaic.Lib.Pipeline.Value
import Idealize.ShloMosaic.Lib.ValueIdx

noncomputable section

namespace Cert.KernelIdeal.Harm

open Cert.KernelIdeal Cert.KernelIdeal.Gen
open Idealize.ShloMosaic Idealize.ShloMosaic.ValueIdx Cert.Harmonics

/-! ## The seven payloads, pointwise: each is its component of the three loaded tables -/

section Payloads
variable (v0 v2 v4 : Vec Ideal S5000x10 .f32) (j : S5000x10.Idx)

theorem pay_denominator : k0_pay11 (F := Ideal) v0 v2 v4 j = radiusCubed (v0 j) (v2 j) (v4 j) := by
  unfold k0_pay11 k0_pay9 k0_pay8 k0_pay7 k0_pay6 k0_pay5 k0_pay4
  simp only [shapeCast_self]
  rfl

theorem pay0 : k0_pay12 (F := Ideal) v0 v2 v4 j = harmonic 0 (v0 j) (v2 j) (v4 j) := by
  unfold harmonic
  rw [← pay_denominator]
  unfold k0_pay12 k0_pay8 k0_pay7 k0_pay5 k0_pay4
  simp only [shapeCast_self]
  rfl

theorem pay1 : k0_pay13 (F := Ideal) v0 v2 v4 j = harmonic 1 (v0 j) (v2 j) (v4 j) := by
  unfold harmonic
  rw [← pay_denominator]
  unfold k0_pay13 k0_pay6 k0_pay5 k0_pay4
  simp only [shapeCast_self]
  rfl

theorem pay2 : k0_pay14 (F := Ideal) v0 v2 v4 j = harmonic 2 (v0 j) (v2 j) (v4 j) := by
  unfold harmonic
  rw [← pay_denominator]
  unfold k0_pay14 k0_pay10 k0_pay9 k0_pay8 k0_pay7 k0_pay6 k0_pay5 k0_pay4
  simp only [shapeCast_self]
  rfl

theorem pay3 : k0_pay15 (F := Ideal) v0 v2 v4 j = harmonic 3 (v0 j) (v2 j) (v4 j) := by
  unfold harmonic
  rw [← pay_denominator]
  unfold k0_pay15 k0_pay10 k0_pay9 k0_pay8 k0_pay7 k0_pay6 k0_pay5 k0_pay4
  simp only [shapeCast_self]
  rfl

theorem pay4 : k0_pay1 (F := Ideal) (k0_pay4 v0) (k0_pay9 v4) (k0_pay10 v0 v2) (k0_pay11 v0 v2 v4) j = harmonic 4 (v0 j) (v2 j) (v4 j) := by
  unfold harmonic
  rw [← pay_denominator]
  unfold k0_pay1 k0_pay10 k0_pay9 k0_pay8 k0_pay7 k0_pay6 k0_pay5 k0_pay4
  simp only [shapeCast_self]
  rfl

theorem pay5 : k0_pay2 (F := Ideal) (k0_pay6 v4) (k0_pay10 v0 v2) (k0_pay11 v0 v2 v4) j = harmonic 5 (v0 j) (v2 j) (v4 j) := by
  unfold harmonic
  rw [← pay_denominator]
  unfold k0_pay2 k0_pay10 k0_pay8 k0_pay7 k0_pay6 k0_pay5 k0_pay4
  simp only [shapeCast_self]
  rfl

theorem pay6 : k0_pay3 (F := Ideal) (k0_pay4 v0) (k0_pay7 v0) (k0_pay8 v2) (k0_pay11 v0 v2 v4) j = harmonic 6 (v0 j) (v2 j) (v4 j) := by
  unfold harmonic
  rw [← pay_denominator]
  unfold k0_pay3 k0_pay8 k0_pay7 k0_pay5 k0_pay4
  simp only [shapeCast_self]
  rfl

end Payloads

variable (x0 : Vec Ideal S5000x30 .f32)

/-! ## The three loads: columns `l`, `10 + l`, `20 + l` of the row -/

theorem ld_x (r : Fin 5000) (l : Fin 10) : View.ld x0 r0_0 (ix2 r l) = (x0 (ix2 r (⟨l.val, by omega⟩ : Fin 30))) := by
  show x0 _ = x0 _
  congr 1; funext d; apply Fin.ext
  match d with
  | ⟨0, _⟩ => show 0 + 1 * r.val = r.val; omega
  | ⟨1, _⟩ => show 0 + 1 * l.val = l.val; omega

theorem ld_y (r : Fin 5000) (l : Fin 10) : View.ld x0 r0_1 (ix2 r l) = (x0 (ix2 r (⟨10 + l.val, by omega⟩ : Fin 30))) := by
  show x0 _ = x0 _
  congr 1; funext d; apply Fin.ext
  match d with
  | ⟨0, _⟩ => show 0 + 1 * r.val = r.val; omega
  | ⟨1, _⟩ => show 10 + 1 * l.val = 10 + l.val; omega

theorem ld_z (r : Fin 5000) (l : Fin 10) : View.ld x0 r0_2 (ix2 r l) = (x0 (ix2 r (⟨20 + l.val, by omega⟩ : Fin 30))) := by
  show x0 _ = x0 _
  congr 1; funext d; apply Fin.ext
  match d with
  | ⟨0, _⟩ => show 0 + 1 * r.val = r.val; omega
  | ⟨1, _⟩ => show 20 + 1 * l.val = 20 + l.val; omega

/-! ## The output block as one function of the input block -/

/-- Row `r`, column `q` of the output block: component `q / 10` of point `q mod 10` of row `r`. -/
def blockAt (r : Fin 5000) (q : Fin 70) : EReal :=
  harmonic (q.val / 10)
    (x0 (ix2 r (⟨q.val % 10, by omega⟩ : Fin 30)))
    (x0 (ix2 r (⟨10 + q.val % 10, by omega⟩ : Fin 30)))
    (x0 (ix2 r (⟨20 + q.val % 10, by omega⟩ : Fin 30)))

def block : Vec Ideal S5000x70 .f32 := fun y => blockAt x0 (y 0) (y 1)

/-- At column `10c + l` the block holds component `c` of point `l`. -/
theorem blockAt_of (r : Fin 5000) (l : Fin 10) (c : Nat) (i0 : Fin 5000) (i1 : Fin 70) (h0 : i0.val = r.val)
    (h1 : i1.val = 10 * c + l.val) : blockAt x0 i0 i1 = harmonic c (x0 (ix2 r (⟨l.val, by omega⟩ : Fin 30))) (x0 (ix2 r (⟨10 + l.val, by omega⟩ : Fin 30))) (x0 (ix2 r (⟨20 + l.val, by omega⟩ : Fin 30))) := by
  obtain rfl : i0 = r := Fin.ext h0
  have hl := l.isLt
  have d : i1.val / 10 = c := by omega
  have m : i1.val % 10 = l.val := by omega
  unfold blockAt
  simp only [d, m]

/-- WHAT THE BODY LEAVES: the seven stores, last first, are the tiles at columns 60, 50, …, 0 of `block`, and they cover
    the output block. -/
theorem out_eq : out0_1 (F := Ideal) x0 = block x0 := by
  funext y
  unfold out0_1
  refine View.canon_apply_of_pieces (Val := Elt Ideal) (block x0) _ ?_ y (cover0_1 _ _ _ _ _ _ _ y)
  intro p hp x
  simp only [List.mem_cons, List.mem_nil_iff, or_false] at hp
  rcases hp with rfl | rfl | rfl | rfl | rfl | rfl | rfl
  · obtain ⟨r, l, rfl⟩ : ∃ (r : Fin 5000) (l : Fin 10), x = ix2 r l := ⟨x 0, x 1, eq_ix2 x⟩
    refine (pay6 _ _ _ _).trans ?_
    rw [ld_x, ld_y, ld_z]
    exact (blockAt_of x0 r l 6 _ _ (by show 0 + 1 * r.val = r.val; omega)
      (by show 60 + 1 * l.val = 10 * 6 + l.val; omega)).symm
  · obtain ⟨r, l, rfl⟩ : ∃ (r : Fin 5000) (l : Fin 10), x = ix2 r l := ⟨x 0, x 1, eq_ix2 x⟩
    refine (pay5 _ _ _ _).trans ?_
    rw [ld_x, ld_y, ld_z]
    exact (blockAt_of x0 r l 5 _ _ (by show 0 + 1 * r.val = r.val; omega)
      (by show 50 + 1 * l.val = 10 * 5 + l.val; omega)).symm
  · obtain ⟨r, l, rfl⟩ : ∃ (r : Fin 5000) (l : Fin 10), x = ix2 r l := ⟨x 0, x 1, eq_ix2 x⟩
    refine (pay4 _ _ _ _).trans ?_
    rw [ld_x, ld_y, ld_z]
    exact (blockAt_of x0 r l 4 _ _ (by show 0 + 1 * r.val = r.val; omega)
      (by show 40 + 1 * l.val = 10 * 4 + l.val; omega)).symm
  · obtain ⟨r, l, rfl⟩ : ∃ (r : Fin 5000) (l : Fin 10), x = ix2 r l := ⟨x 0, x 1, eq_ix2 x⟩
    refine (pay3 _ _ _ _).trans ?_
    rw [ld_x, ld_y, ld_z]
    exact (blockAt_of x0 r l 3 _ _ (by show 0 + 1 * r.val = r.val; omega)
      (by show 30 + 1 * l.val = 10 * 3 + l.val; omega)).symm
  · obtain ⟨r, l, rfl⟩ : ∃ (r : Fin 5000) (l : Fin 10), x = ix2 r l := ⟨x 0, x 1, eq_ix2 x⟩
    refine (pay2 _ _ _ _).trans ?_
    rw [ld_x, ld_y, ld_z]
    exact (blockAt_of x0 r l 2 _ _ (by show 0 + 1 * r.val = r.val; omega)
      (by show 20 + 1 * l.val = 10 * 2 + l.val; omega)).symm
  · obtain ⟨r, l, rfl⟩ : ∃ (r : Fin 5000) (l : Fin 10), x = ix2 r l := ⟨x 0, x 1, eq_ix2 x⟩
    refine (pay1 _ _ _ _).trans ?_
    rw [ld_x, ld_y, ld_z]
    exact (blockAt_of x0 r l 1 _ _ (by show 0 + 1 * r.val = r.val; omega)
      (by show 10 + 1 * l.val = 10 * 1 + l.val; omega)).symm
  · obtain ⟨r, l, rfl⟩ : ∃ (r : Fin 5000) (l : Fin 10), x = ix2 r l := ⟨x 0, x 1, eq_ix2 x⟩
    refine (pay0 _ _ _ _).trans ?_
    rw [ld_x, ld_y, ld_z]
    exact (blockAt_of x0 r l 0 _ _ (by show 0 + 1 * r.val = r.val; omega)
      (by show 0 + 1 * l.val = 10 * 0 + l.val; omega)).symm

end Cert.KernelIdeal.Harm

end
-- ==== Proof.Layout.lean ====
/-
  The two re-layouts around the region, read at an index.

  Before the region the row of thirty coordinates, ten points of (x, y, z), is re-laid PLANAR: cut into a ten-by-three
  table, transposed, and flattened again, so that column `p` of the new row holds coordinate `p / 10` of point `p mod 10`
  — old column `3·(p mod 10) + p / 10`. After the region the row of seventy results, seven tables of ten, is re-laid the
  other way: cut into a seven-by-ten table, transposed, flattened, so that column `q` of the final row holds entry
  `q / 7` of table `q mod 7` — column `10·(q mod 7) + q / 7` of the region's row. Each is a reshape, a transpose of
  the two inner axes, and a reshape; a reshape keeps the row-major position and the transpose swaps two coordinates.
-/
import proofs.«141521_j81965155877406_2_alg».proof.Proof.Gen.KernelIdeal
import proofs.«141521_j81965155877406_2_alg».proof.Proof.Harmonics
import Idealize.ShloMosaic.Lib.Pipeline.Value
import Idealize.ShloMosaic.Lib.ValueIdx

noncomputable section

namespace Cert.KernelIdeal.Harm

open Cert.KernelIdeal Cert.KernelIdeal.Gen
open Idealize.ShloMosaic Idealize.ShloMosaic.ValueIdx Cert.Harmonics

/-- The planar re-layout of the coordinate array, as the program spells it. -/
def relaid (A : S2000000x30.Idx → Elt Ideal .f32) : S2000000x30.Idx → Elt Ideal .f32 :=
  shapeCast S2000000x30
    (transpose S2000000x3x10 [0, 2, 1] (shapeCast S2000000x10x3 A shapeCasts_S2000000x30_S2000000x10x3)
      transposes_S2000000x10x3_S2000000x3x10_0_2_1)
    shapeCasts_S2000000x3x10_S2000000x30

/-- Column `p` of a planar row is old column `3·(p mod 10) + p / 10`. -/
theorem relaid_apply (A : S2000000x30.Idx → Elt Ideal .f32) (b : Fin 2000000) (p : Fin 30) :
    relaid A (ix2 b p) = A (ix2 b (⟨3 * (p.val % 10) + p.val / 10, by omega⟩ : Fin 30)) := by
  unfold relaid
  refine (shapeCast_apply _ _ (ix2 b p) (ix3 b (⟨p.val / 10, by omega⟩ : Fin 3) (⟨p.val % 10, by omega⟩ : Fin 10)) ?_).trans ?_
  · rewrite [Shape.rowMajor_val_three, Shape.rowMajor_val_two]
    show (b.val * 3 + p.val / 10) * 10 + p.val % 10 = b.val * 30 + p.val
    omega
  refine (transpose_apply _ _ _ _ (ix3 b (⟨p.val % 10, by omega⟩ : Fin 10) (⟨p.val / 10, by omega⟩ : Fin 3)) ?_).trans ?_
  · intro d
    match d with
    | ⟨0, _⟩ => rfl
    | ⟨1, _⟩ => rfl
    | ⟨2, _⟩ => rfl
  refine shapeCast_apply _ _ _ _ ?_
  rewrite [Shape.rowMajor_val_two, Shape.rowMajor_val_three]
  show b.val * 30 + (3 * (p.val % 10) + p.val / 10) = (b.val * 10 + p.val % 10) * 3 + p.val / 10
  omega

/-- The re-layout of the region's result back to point-major order, as the program spells it. -/
def unrelaid (O : S2000000x70.Idx → Elt Ideal .f32) : S2000000x70.Idx → Elt Ideal .f32 :=
  shapeCast S2000000x70
    (transpose S2000000x10x7 [0, 2, 1] (shapeCast S2000000x7x10 O shapeCasts_S2000000x70_S2000000x7x10)
      transposes_S2000000x7x10_S2000000x10x7_0_2_1)
    shapeCasts_S2000000x10x7_S2000000x70

/-- Column `q` of a final row is column `10·(q mod 7) + q / 7` of the region's row. -/
theorem unrelaid_apply (O : S2000000x70.Idx → Elt Ideal .f32) (b : Fin 2000000) (q : Fin 70) :
    unrelaid O (ix2 b q) = O (ix2 b (⟨10 * (q.val % 7) + q.val / 7, by omega⟩ : Fin 70)) := by
  unfold unrelaid
  refine (shapeCast_apply _ _ (ix2 b q) (ix3 b (⟨q.val / 7, by omega⟩ : Fin 10) (⟨q.val % 7, by omega⟩ : Fin 7)) ?_).trans ?_
  · rewrite [Shape.rowMajor_val_three, Shape.rowMajor_val_two]
    show (b.val * 10 + q.val / 7) * 7 + q.val % 7 = b.val * 70 + q.val
    omega
  refine (transpose_apply _ _ _ _ (ix3 b (⟨q.val % 7, by omega⟩ : Fin 7) (⟨q.val / 7, by omega⟩ : Fin 10)) ?_).trans ?_
  · intro d
    match d with
    | ⟨0, _⟩ => rfl
    | ⟨1, _⟩ => rfl
    | ⟨2, _⟩ => rfl
  refine shapeCast_apply _ _ _ _ ?_
  rewrite [Shape.rowMajor_val_two, Shape.rowMajor_val_three]
  show b.val * 70 + (10 * (q.val % 7) + q.val / 7) = (b.val * 7 + q.val % 7) * 10 + q.val / 7
  omega

/-! ## The region's result array as a function of the planar coordinate array, and the three steps composed -/

/-- Row `R`, column `q` of the region's result: component `q / 10` of point `q mod 10` of the row, from the planar
    row's columns `q mod 10`, `10 + q mod 10`, `20 + q mod 10`. -/
def planarAt (P : S2000000x30.Idx → Elt Ideal .f32) (R : Fin 2000000) (q : Fin 70) : EReal :=
  harmonic (q.val / 10) (P (ix2 R (⟨q.val % 10, by omega⟩ : Fin 30))) (P (ix2 R (⟨10 + q.val % 10, by omega⟩ : Fin 30))) (P (ix2 R (⟨20 + q.val % 10, by omega⟩ : Fin 30)))

def planar (P : S2000000x30.Idx → Elt Ideal .f32) : S2000000x70.Idx → Elt Ideal .f32 := fun i => planarAt P (i 0) (i 1)

/-- Re-laid planar, computed table by table, re-laid back: column `q` of the final row is component `q mod 7` of point
    `q / 7`, from old columns `3·(q / 7)`, `3·(q / 7) + 1`, `3·(q / 7) + 2`. Only arithmetic of column numbers. -/
theorem composed_at (X : S2000000x30.Idx → Elt Ideal .f32) (b : Fin 2000000) (q : Fin 70) :
    unrelaid (planar (relaid X)) (ix2 b q) = resultAt X b q := by
  rw [unrelaid_apply]
  show planarAt (relaid X) b (⟨10 * (q.val % 7) + q.val / 7, by omega⟩ : Fin 70) = _
  have hq := q.isLt
  have d : (10 * (q.val % 7) + q.val / 7) / 10 = q.val % 7 := by omega
  have e : (10 * (q.val % 7) + q.val / 7) % 10 = q.val / 7 := by omega
  have a0 : 3 * (q.val / 7 % 10) + q.val / 7 / 10 = 3 * (q.val / 7) := by omega
  have a1 : 3 * ((10 + q.val / 7) % 10) + (10 + q.val / 7) / 10 = 3 * (q.val / 7) + 1 := by omega
  have a2 : 3 * ((20 + q.val / 7) % 10) + (20 + q.val / 7) / 10 = 3 * (q.val / 7) + 2 := by omega
  unfold planarAt resultAt
  simp only [Fin.val_mk, d, e]
  rw [relaid_apply, relaid_apply, relaid_apply]
  simp only [Fin.val_mk, a0, a1, a2]

theorem composed (X : S2000000x30.Idx → Elt Ideal .f32) : unrelaid (planar (relaid X)) = result X := by
  funext i
  obtain ⟨b, q, rfl⟩ : ∃ (b : Fin 2000000) (q : Fin 70), i = ix2 b q := ⟨i 0, i 1, eq_ix2 i⟩
  exact composed_at X b q

end Cert.KernelIdeal.Harm

end
-- ==== Proof.Blocks.lean ====
/-
  From blocks to the array: after the region, the result window's array is one function of the input window's array.

  The grid has 400 points; point `t` reads rows `5000t … 5000t + 4999` of the planar coordinate array, all thirty
  columns, and writes back the same rows of the seventy-column result array. What it writes is `block` of what it read
  (BlockValue), so row `R`, column `q` of the result array is component `q / 10` of point `q mod 10` of row `R` of the
  planar array: the row's columns `q mod 10`, `10 + q mod 10`, `20 + q mod 10`. Every row lies in exactly the block of
  point `R / 5000`, so the 400 blocks cover the array.
-/
import proofs.«141521_j81965155877406_2_alg».proof.Proof.BlockValue
import proofs.«141521_j81965155877406_2_alg».proof.Proof.Layout

noncomputable section

namespace Cert.KernelIdeal.Harm

open Cert.KernelIdeal Cert.KernelIdeal.Gen
open Idealize.ShloMosaic Idealize.ShloMosaic.TcCoe Idealize.SL.Sem Idealize.ShloMosaic.ValueIdx Cert.Harmonics
open Idealize.ShloMosaic.Pipeline (Dat)

/-- A block whose rows are rows `5000T + r` of the array computes those rows of `planar`. -/
theorem blockAt_eq_planarAt (x0 : Vec Ideal S5000x30 .f32) (P : S2000000x30.Idx → Elt Ideal .f32) (T : Nat)
    (hx : ∀ (r : Fin 5000) (p : Fin 30) (R : Fin 2000000), R.val = 5000 * T + r.val → x0 (ix2 r p) = P (ix2 R p))
    (r : Fin 5000) (q : Fin 70) (R : Fin 2000000) (q' : Fin 70) (hR : R.val = 5000 * T + r.val) (hq : q'.val = q.val) :
    blockAt x0 r q = planarAt P R q' := by
  obtain rfl : q' = q := Fin.ext hq
  unfold blockAt planarAt
  rw [hx r _ R hR, hx r _ R hR, hx r _ R hR]

variable (m : (ℓ : Loc nD τ sig) → Buf (Elt Ideal) ℓ)

/-! ## The grid's index maps, decided once over the 400 points -/

theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point `t`: row `r` of it is row `5000t + r` of the planar array. -/
theorem iblk_apply (c : Dev nD) (t : Fin cfg0.N) (r : Fin 5000) (p : Fin 30) (R : Fin 2000000)
    (hR : R.val = 5000 * t.val + r.val) :
    (iblk m c 0 t : Vec Ideal S5000x30 .f32) (ix2 r p)
      = (V m c main_call0_v2 : S2000000x30.Idx → Elt Ideal .f32) (ix2 R p) := by
  obtain ⟨e0, e1, -, -⟩ := idx_facts t
  unfold iblk
  rw [View.read_apply]
  show V m c main_call0_v2 _ = V m c main_call0_v2 _
  congr 1
  funext a
  apply Fin.ext
  match a with
  | ⟨0, _⟩ => show win0_0.index t (0 : Fin 2) * 5000 + 1 * r.val = R.val; rw [e0, hR]; omega
  | ⟨1, _⟩ => show win0_0.index t (1 : Fin 2) * 30 + 1 * p.val = p.val; rw [e1]; omega

/-- WHAT POINT `t` WRITES BACK is block `t` of `planar` of the planar coordinate array. -/
theorem flushed_eq (c : Dev nD) (t : Fin cfg0.N) :
    (dats m 0 c).flushed 1 t = ((cfg0.win 1).blk t).view.read (Elt Ideal) (planar (V m c main_call0_v2)) := by
  show (cfg0.win 1).cut (grid0.coords t) ((dats m 0 c).after 1 t) = _
  rw [after0_1, out_eq]
  obtain ⟨-, -, e2, e3⟩ := idx_facts t
  funext y
  obtain ⟨r, q, rfl⟩ : ∃ (r : Fin 5000) (q : Fin 70), y = ix2 r q := ⟨y 0, y 1, eq_ix2 y⟩
  rw [View.read_apply]
  show blockAt (iblk m c 0 t) r q
    = planarAt (V m c main_call0_v2) (((cfg0.win 1).blk t).view.emb (ix2 r q) 0) (((cfg0.win 1).blk t).view.emb (ix2 r q) 1)
  refine blockAt_eq_planarAt (iblk m c 0 t) (V m c main_call0_v2) t.val (fun r p R hR => iblk_apply m c t r p R hR) r q _ _ ?_ ?_
  · show win0_1.index t (0 : Fin 2) * 5000 + 1 * r.val = 5000 * t.val + r.val; rw [e2]; omega
  · show win0_1.index t (1 : Fin 2) * 70 + 1 * q.val = q.val; rw [e3]; omega

/-- An index of the result array is in point `t`'s block iff each coordinate is in the block's range on its axis. -/
theorem mem_blk (t : Fin cfg0.N) (i : S2000000x70.Idx) :
    i ∈ ((cfg0.win 1).blk t).view.set ↔ ∀ a : Fin 2, win0_1.index t a * S5000x70.size a ≤ (i a).val
      ∧ (i a).val < win0_1.index t a * S5000x70.size a + S5000x70.size a := by
  show i ∈ ((View.whole main_call0_v3).slice (win0_1.rect t)).set ↔ _
  rw [View.set_slice_whole, Rect.mem_set_unit]
  exact Iff.rfl

/-- Row `R` is in the block of point `R / 5000`. -/
theorem covered (i : S2000000x70.Idx) :
    ∃ t : Fin cfg0.N, (cfg0.win 1).flush t = true ∧ i ∈ ((cfg0.win 1).blk t).view.set := by
  have hN : cfg0.N = 400 := N_0
  have hi0 : (i 0).val < 2000000 := (i 0).isLt
  have hi1 : (i 1).val < 70 := (i 1).isLt
  refine ⟨⟨(i 0).val / 5000, by rw [hN]; omega⟩, flush0_1 _, ?_⟩
  rw [mem_blk]
  obtain ⟨-, -, e2, e3⟩ := idx_facts ⟨(i 0).val / 5000, by rw [hN]; omega⟩
  intro a
  match a with
  | ⟨0, _⟩ =>
    show win0_1.index _ (0 : Fin 2) * 5000 ≤ (i 0).val ∧ (i 0).val < win0_1.index _ (0 : Fin 2) * 5000 + 5000
    rw [e2]; show (i 0).val / 5000 * 5000 ≤ (i 0).val ∧ (i 0).val < (i 0).val / 5000 * 5000 + 5000; omega
  | ⟨1, _⟩ =>
    show win0_1.index _ (1 : Fin 2) * 70 ≤ (i 1).val ∧ (i 1).val < win0_1.index _ (1 : Fin 2) * 70 + 70
    rw [e3]; omega

/-- THE RESULT WINDOW'S ARRAY after the region. -/
theorem final (c : Dev nD) : (dats m 0 c).arrAt 1 cfg0.N = planar (V m c main_call0_v2) :=
  (dats m 0 c).arrAt_eq_of_cover 1 (planar (V m c main_call0_v2)) (fun t _ => flushed_eq m c t) covered

end Cert.KernelIdeal.Harm

end
-- ==== Proof.KernelValue.lean ====
/-
  The idealized kernel's run, read: its result array is `Cert.Harmonics.result` of the coordinate array.

  The program re-lays the coordinate array planar (three host operations), launches the region, and re-lays the region's
  result back (three host operations). The region finds its input window's array at the planar re-layout of the
  argument; it leaves its result window's array at `planar` of that (Blocks); the lines after the region read that array
  and write the final result. The three steps composed are the specification (Layout's `composed`).
-/
import proofs.«141521_j81965155877406_2_alg».proof.Proof.Blocks
import proofs.«141521_j81965155877406_2_alg».proof.Proof.Layout
import Idealize.ShloMosaic.Lib.StableHlo.Run

noncomputable section

namespace Cert.KernelIdeal.Harm

open Cert.KernelIdeal Cert.KernelIdeal.Gen
open Idealize.ShloMosaic Idealize.ShloMosaic.TcCoe Idealize.SL.Sem Idealize.ShloMosaic.ValueIdx Cert.Harmonics
open Idealize.ShloMosaic.Pipeline (Dat)

variable (m : (ℓ : Loc nD τ sig) → Buf (Elt Ideal) ℓ) (ρ : Dev nD → PrngReg)

/-- The region finds its input window's array at the planar re-layout of the argument. -/
theorem entry_eq (c : Dev nD) :
    (V m c main_call0_v2 : S2000000x30.Idx → Elt Ideal .f32) = relaid (m ((c : Thread nD τ).loc main_arg0)) := by
  show StableHlo.after hostOps0 (fun b => m (c, b)) (Proc.devRef .tc main_call0_v2) = _
  after_results
  rfl

/-- The lines after the region leave the final result at the re-layout of what they find in the result window's array. -/
theorem tail_eq (c : Dev nD) :
    Pipeline.afterTail₀ cfgs (dats m) 0 (V0 m) [hostOps1] c main_v0
      = unrelaid (Pipeline.withArrays spec0 c (V0 m c) (fun w => (dats m 0 c).arrAt w cfg0.N) (Proc.devRef .tc main_call0_v3)) := by
  unfold Pipeline.afterTail₀
  show StableHlo.after hostOps1 _ (Proc.devRef .tc main_v0) = _
  after_results
  rfl

/-- THE KERNEL'S RESULT: the final result buffer after the run, as the specification's function of the argument. -/
theorem value (c : Dev nD) :
    Pipeline.afterTail₀ cfgs (dats m) 0 (V0 m) [hostOps1] c main_v0 = result (m ((c : Thread nD τ).loc main_arg0)) := by
  rw [tail_eq]
  refine (congrArg unrelaid ((Pipeline.withArrays_arr spec0 launch0.win.arr_inj c _ _ 1).trans (final m c))).trans ?_
  rw [entry_eq]
  exact composed _

/-- The run, read: the result buffer at the specification of the argument, the argument unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun _ h c =>
      ⟨((h c).2 main_v0 (Pipeline.mem_restRefs_of main_v0 (by decide) (by decide))).trans (value m c),
       ((h c).2 main_arg0 (Pipeline.mem_restRefs_of main_arg0 (by decide) (by decide))).trans (W_main_arg0 m (dats m) c)⟩)
    (run_main m ρ)

end Cert.KernelIdeal.Harm

end
-- ==== Proof.RefValue.lean ====
/-
  The reference program, read index by index: its result array is `Cert.Harmonics.result` of the coordinate array.

  The program cuts the row of thirty numbers into ten points of three (a reshape and three unit-thick slices), forms
  the squares, their sum `s`, `√s · s`, and the seven cubic numerators over whole arrays of points, stacks the seven
  numerators along a new last axis, divides the stack by the cube of the distance (broadcast along that axis), and lays
  the ten-by-seven table of a row out as seventy columns. Read at row `b`, column `q`, that is component `q mod 7`
  of point `q / 7`: the reshapes are read through their row-major positions, the stack through the piece its last
  coordinate names, and every arithmetic operation is pointwise, so each stage at an index is the same expression of
  the point's three coordinates that `Cert.Harmonics` names.
-/
import proofs.«141521_j81965155877406_2_alg».proof.Proof.Gen.ReferenceIdeal.Read
import proofs.«141521_j81965155877406_2_alg».proof.Proof.Harmonics
import Idealize.ShloMosaic.Lib.ValueIdx
import Idealize.ShloMosaic.Lib.Pipeline.Value

noncomputable section

namespace Cert.ReferenceIdeal.Harm

open Cert.ReferenceIdeal Cert.ReferenceIdeal.Gen Cert.ReferenceIdeal.Read
open Idealize.ShloMosaic Idealize.ShloMosaic.ValueIdx Cert.Harmonics

variable (X : S2000000x30.Idx → EReal)

/-! ## A point's three coordinates: point `a` of row `b` sits at columns `3a`, `3a + 1`, `3a + 2` -/

theorem xs (b : Fin 2000000) (a : Fin 10) :
    val_main_v2 (F := Ideal) X (ix2 b a) = X (ix2 b (⟨3 * a.val, by omega⟩ : Fin 30)) := by
  rw [val_main_v2_apply, val_main_v1_apply, val_main_v0_apply]
  congr 1
  funext d
  apply Fin.ext
  match d with
  | ⟨0, _⟩ =>
    show (((b.val * 10 + a.val) / 10 * 10 + (b.val * 10 + a.val) / 1 % 10) * 3 + 0) / 30 = b.val
    have := a.isLt; omega
  | ⟨1, _⟩ =>
    show (((b.val * 10 + a.val) / 10 * 10 + (b.val * 10 + a.val) / 1 % 10) * 3 + 0) % 30 = 3 * a.val
    have := a.isLt; omega

theorem ys (b : Fin 2000000) (a : Fin 10) :
    val_main_v4 (F := Ideal) X (ix2 b a) = X (ix2 b (⟨3 * a.val + 1, by omega⟩ : Fin 30)) := by
  rw [val_main_v4_apply, val_main_v3_apply, val_main_v0_apply]
  congr 1
  funext d
  apply Fin.ext
  match d with
  | ⟨0, _⟩ =>
    show (((b.val * 10 + a.val) / 10 * 10 + (b.val * 10 + a.val) / 1 % 10) * 3 + 1) / 30 = b.val
    have := a.isLt; omega
  | ⟨1, _⟩ =>
    show (((b.val * 10 + a.val) / 10 * 10 + (b.val * 10 + a.val) / 1 % 10) * 3 + 1) % 30 = 3 * a.val + 1
    have := a.isLt; omega

theorem zs (b : Fin 2000000) (a : Fin 10) :
    val_main_v6 (F := Ideal) X (ix2 b a) = X (ix2 b (⟨3 * a.val + 2, by omega⟩ : Fin 30)) := by
  rw [val_main_v6_apply, val_main_v5_apply, val_main_v0_apply]
  congr 1
  funext d
  apply Fin.ext
  match d with
  | ⟨0, _⟩ =>
    show (((b.val * 10 + a.val) / 10 * 10 + (b.val * 10 + a.val) / 1 % 10) * 3 + 2) / 30 = b.val
    have := a.isLt; omega
  | ⟨1, _⟩ =>
    show (((b.val * 10 + a.val) / 10 * 10 + (b.val * 10 + a.val) / 1 % 10) * 3 + 2) % 30 = 3 * a.val + 2
    have := a.isLt; omega

/-! ## The cube of the distance and the seven numerators, at a point -/

theorem denom (b : Fin 2000000) (a : Fin 10) :
    val_main_v14 (F := Ideal) X (ix2 b a) = radiusCubed (X (ix2 b (⟨3 * a.val, by omega⟩ : Fin 30))) (X (ix2 b (⟨3 * a.val + 1, by omega⟩ : Fin 30))) (X (ix2 b (⟨3 * a.val + 2, by omega⟩ : Fin 30))) := by
  rw [val_main_v14_apply, val_main_v13_apply, val_main_v12_apply, val_main_v11_apply, val_main_v9_apply, val_main_v8_apply,
    val_main_v7_apply, xs, ys, zs]
  rfl

theorem num0 (b : Fin 2000000) (a : Fin 10) :
    val_main_v18 (F := Ideal) X (ix2 b a) = numerator 0 (X (ix2 b (⟨3 * a.val, by omega⟩ : Fin 30))) (X (ix2 b (⟨3 * a.val + 1, by omega⟩ : Fin 30))) (X (ix2 b (⟨3 * a.val + 2, by omega⟩ : Fin 30))) := by
  rw [val_main_v18_apply, val_main_v17_apply, val_main_v16_apply, val_main_v15_apply, val_main_cst_apply, val_main_v8_apply,
    val_main_v7_apply, xs, ys]
  rfl

theorem num1 (b : Fin 2000000) (a : Fin 10) :
    val_main_v20 (F := Ideal) X (ix2 b a) = numerator 1 (X (ix2 b (⟨3 * a.val, by omega⟩ : Fin 30))) (X (ix2 b (⟨3 * a.val + 1, by omega⟩ : Fin 30))) (X (ix2 b (⟨3 * a.val + 2, by omega⟩ : Fin 30))) := by
  rw [val_main_v20_apply, val_main_v19_apply, xs, ys, zs]
  rfl

theorem num2 (b : Fin 2000000) (a : Fin 10) :
    val_main_v24 (F := Ideal) X (ix2 b a) = numerator 2 (X (ix2 b (⟨3 * a.val, by omega⟩ : Fin 30))) (X (ix2 b (⟨3 * a.val + 1, by omega⟩ : Fin 30))) (X (ix2 b (⟨3 * a.val + 2, by omega⟩ : Fin 30))) := by
  rw [val_main_v24_apply, val_main_v23_apply, val_main_v22_apply, val_main_v21_apply, val_main_cst_0_apply, val_main_v10_apply,
    val_main_v9_apply, val_main_v8_apply, val_main_v7_apply, xs, ys, zs]
  rfl

theorem num3 (b : Fin 2000000) (a : Fin 10) :
    val_main_v30 (F := Ideal) X (ix2 b a) = numerator 3 (X (ix2 b (⟨3 * a.val, by omega⟩ : Fin 30))) (X (ix2 b (⟨3 * a.val + 1, by omega⟩ : Fin 30))) (X (ix2 b (⟨3 * a.val + 2, by omega⟩ : Fin 30))) := by
  rw [val_main_v30_apply, val_main_v29_apply, val_main_v28_apply, val_main_v27_apply, val_main_cst_2_apply, val_main_v26_apply,
    val_main_v25_apply, val_main_cst_1_apply, val_main_v10_apply, val_main_v9_apply, val_main_v8_apply, val_main_v7_apply, xs, ys, zs]
  rfl

theorem num4 (b : Fin 2000000) (a : Fin 10) :
    val_main_v34 (F := Ideal) X (ix2 b a) = numerator 4 (X (ix2 b (⟨3 * a.val, by omega⟩ : Fin 30))) (X (ix2 b (⟨3 * a.val + 1, by omega⟩ : Fin 30))) (X (ix2 b (⟨3 * a.val + 2, by omega⟩ : Fin 30))) := by
  rw [val_main_v34_apply, val_main_v33_apply, val_main_v32_apply, val_main_v31_apply, val_main_cst_3_apply, val_main_v10_apply,
    val_main_v9_apply, val_main_v8_apply, val_main_v7_apply, xs, ys, zs]
  rfl

theorem num5 (b : Fin 2000000) (a : Fin 10) :
    val_main_v35 (F := Ideal) X (ix2 b a) = numerator 5 (X (ix2 b (⟨3 * a.val, by omega⟩ : Fin 30))) (X (ix2 b (⟨3 * a.val + 1, by omega⟩ : Fin 30))) (X (ix2 b (⟨3 * a.val + 2, by omega⟩ : Fin 30))) := by
  rw [val_main_v35_apply, val_main_v10_apply, val_main_v8_apply, val_main_v7_apply, xs, ys, zs]
  rfl

theorem num6 (b : Fin 2000000) (a : Fin 10) :
    val_main_v39 (F := Ideal) X (ix2 b a) = numerator 6 (X (ix2 b (⟨3 * a.val, by omega⟩ : Fin 30))) (X (ix2 b (⟨3 * a.val + 1, by omega⟩ : Fin 30))) (X (ix2 b (⟨3 * a.val + 2, by omega⟩ : Fin 30))) := by
  rw [val_main_v39_apply, val_main_v38_apply, val_main_v37_apply, val_main_v36_apply, val_main_cst_4_apply, val_main_v8_apply,
    val_main_v7_apply, xs, ys]
  rfl

/-! ## The stack of the seven numerators along a new last axis -/

/-- A table of points given a trailing axis of length one is read at the point. -/
theorem point_of_unit (b : Fin 2000000) (a : Fin 10) (e : Fin 1) : idx_main_v40 (ix3 b a e) = ix2 b a := by
  funext d
  match d with
  | ⟨0, _⟩ => rfl
  | ⟨1, _⟩ => rfl

/-- Seven unit-thick tables joined along the last axis, read at last coordinate `k`: table `k`, at the point. -/
theorem joined_apply (xs : List ((s : Shape) × (s.Idx → EReal)))
    (h : Shape.Concatenates (xs.map (·.1)) S2000000x10x7 (2 : Fin 3)) (b : Fin 2000000) (a : Fin 10)
    (k : Nat) (hk7 : k < 7) (hk : k < xs.length) (x₁ : S2000000x10x1.Idx → EReal) (hxk : xs[k] = ⟨S2000000x10x1, x₁⟩)
    (hpre : (((xs.take k).map (·.1)).map fun s => if h : s.rank = S2000000x10x7.rank then s.size ((2 : Fin 3).cast h.symm) else 0).sum = k) :
    concatenate S2000000x10x7 (2 : Fin 3) xs h (ix3 b a (⟨k, hk7⟩ : Fin 7)) = x₁ (ix3 b a (0 : Fin 1)) :=
  concatenate_apply_piece (2 : Fin 3) xs h (ix3 b a (⟨k, hk7⟩ : Fin 7)) k hk S2000000x10x1 x₁ hxk rfl k hpre (ix3 b a (0 : Fin 1))
    (fun d hd => by
      match d with
      | ⟨0, _⟩ => rfl
      | ⟨1, _⟩ => rfl
      | ⟨2, _⟩ => exact absurd rfl hd)
    (by show k + 0 = k; omega)

theorem stacked (b : Fin 2000000) (a : Fin 10) (k : Fin 7) :
    val_main_v47 (F := Ideal) X (ix3 b a k) = numerator k.val (X (ix2 b (⟨3 * a.val, by omega⟩ : Fin 30))) (X (ix2 b (⟨3 * a.val + 1, by omega⟩ : Fin 30))) (X (ix2 b (⟨3 * a.val + 2, by omega⟩ : Fin 30))) := by
  unfold val_main_v47
  match k with
  | ⟨0, _⟩ =>
    refine (joined_apply _ _ b a 0 (by omega) (by show 0 < 7; omega) _ rfl rfl).trans ?_
    rw [val_main_v40_apply, point_of_unit]; exact num0 X b a
  | ⟨1, _⟩ =>
    refine (joined_apply _ _ b a 1 (by omega) (by show 1 < 7; omega) _ rfl rfl).trans ?_
    rw [val_main_v41_apply]; exact (congrArg _ (point_of_unit b a 0)).trans (num1 X b a)
  | ⟨2, _⟩ =>
    refine (joined_apply _ _ b a 2 (by omega) (by show 2 < 7; omega) _ rfl rfl).trans ?_
    rw [val_main_v42_apply]; exact (congrArg _ (point_of_unit b a 0)).trans (num2 X b a)
  | ⟨3, _⟩ =>
    refine (joined_apply _ _ b a 3 (by omega) (by show 3 < 7; omega) _ rfl rfl).trans ?_
    rw [val_main_v43_apply]; exact (congrArg _ (point_of_unit b a 0)).trans (num3 X b a)
  | ⟨4, _⟩ =>
    refine (joined_apply _ _ b a 4 (by omega) (by show 4 < 7; omega) _ rfl rfl).trans ?_
    rw [val_main_v44_apply]; exact (congrArg _ (point_of_unit b a 0)).trans (num4 X b a)
  | ⟨5, _⟩ =>
    refine (joined_apply _ _ b a 5 (by omega) (by show 5 < 7; omega) _ rfl rfl).trans ?_
    rw [val_main_v45_apply]; exact (congrArg _ (point_of_unit b a 0)).trans (num5 X b a)
  | ⟨6, _⟩ =>
    refine (joined_apply _ _ b a 6 (by omega) (by show 6 < 7; omega) _ rfl rfl).trans ?_
    rw [val_main_v46_apply]; exact (congrArg _ (point_of_unit b a 0)).trans (num6 X b a)

/-! ## The quotient, and the table of a row laid out as seventy columns -/

/-- The cube of the distance, repeated along the last axis. -/
theorem denom_stacked (b : Fin 2000000) (a : Fin 10) (k : Fin 7) :
    val_main_v49 (F := Ideal) X (ix3 b a k) = radiusCubed (X (ix2 b (⟨3 * a.val, by omega⟩ : Fin 30))) (X (ix2 b (⟨3 * a.val + 1, by omega⟩ : Fin 30))) (X (ix2 b (⟨3 * a.val + 2, by omega⟩ : Fin 30))) := by
  rw [val_main_v49_apply, val_main_v48_apply]
  refine (congrArg (val_main_v14 (F := Ideal) X) ?_).trans (denom X b a)
  funext d
  match d with
  | ⟨0, _⟩ => rfl
  | ⟨1, _⟩ => rfl

theorem quotient (b : Fin 2000000) (a : Fin 10) (k : Fin 7) :
    val_main_v50 (F := Ideal) X (ix3 b a k) = harmonic k.val (X (ix2 b (⟨3 * a.val, by omega⟩ : Fin 30))) (X (ix2 b (⟨3 * a.val + 1, by omega⟩ : Fin 30))) (X (ix2 b (⟨3 * a.val + 2, by omega⟩ : Fin 30))) := by
  rw [val_main_v50_apply, stacked, denom_stacked]
  rfl

/-- THE REFERENCE'S RESULT at row `b`, column `q`. -/
theorem result_at (b : Fin 2000000) (q : Fin 70) :
    val_main_v51 (F := Ideal) X (ix2 b q) = resultAt X b q := by
  rw [val_main_v51_apply]
  have e : idx_main_v51 (ix2 b q) = ix3 b (⟨q.val / 7, by omega⟩ : Fin 10) (⟨q.val % 7, by omega⟩ : Fin 7) := by
    funext d
    apply Fin.ext
    match d with
    | ⟨0, _⟩ => show (b.val * 70 + q.val) / 70 = b.val; have := q.isLt; omega
    | ⟨1, _⟩ => show (b.val * 70 + q.val) / 7 % 10 = q.val / 7; have := q.isLt; omega
    | ⟨2, _⟩ => show (b.val * 70 + q.val) % 7 = q.val % 7; have := q.isLt; omega
  rw [e, quotient]
  rfl

/-- The reference's result array is the specification's function of the coordinate array. -/
theorem result_eq : val_main_v51 (F := Ideal) X = result X := by
  funext i
  obtain ⟨b, q, rfl⟩ : ∃ (b : Fin 2000000) (q : Fin 70), i = ix2 b q := ⟨i 0, i 1, eq_ix2 i⟩
  exact result_at X b q

end Cert.ReferenceIdeal.Harm

end
-- ==== Proof.lean ====
/-
  The certificate's claim: a kernel that computes, for two million rows of ten points, the seven third-order harmonic
  polynomials of each point over the cube of its distance from the origin, against the plain array program that
  computes the same table.

  Both programs, read over the extended reals, apply to each point's coordinates (x, y, z) the same expressions in
  the same order of operations: the squares, `s = (x² + y²) + z²`, `√s · s`, the seven cubic numerators with the
  numerals 2, 3, 4, and each numerator's quotient by `√s · s`. They differ only in how the numbers are laid out on the way:
  the kernel first re-lays each row planar (the ten x's, then the ten y's, then the ten z's), computes seven tables of
  ten side by side over blocks of 5000 rows, and re-lays the result point by point; the reference slices the three
  coordinates out, stacks the seven numerators along a new axis and divides once. Proof/Harmonics.lean states the common
  function; Proof/RefValue.lean reads the reference's result at an index; Proof/BlockValue.lean, Proof/Blocks.lean,
  Proof/Layout.lean and Proof/KernelValue.lean read the kernel's. Since the two sides are the same expression at every
  index, no law of arithmetic and no finiteness of the inputs is used: the precondition is never opened.

  The frames of the two kernel programs are the generated ones; the reference's frame is its generated run with the
  result dropped. The idealization rewrote no operation of the kernel, so there is nothing to preserve.
-/
import proofs.«141521_j81965155877406_2_alg».proof.Defs
import proofs.«141521_j81965155877406_2_alg».proof.Proof.Gen.Kernel
import proofs.«141521_j81965155877406_2_alg».proof.Proof.Gen.Kernel.Frame
import proofs.«141521_j81965155877406_2_alg».proof.Proof.Gen.KernelIdeal
import proofs.«141521_j81965155877406_2_alg».proof.Proof.Gen.KernelIdeal.Frame
import proofs.«141521_j81965155877406_2_alg».proof.Proof.Gen.ReferenceIdeal
import proofs.«141521_j81965155877406_2_alg».proof.Proof.Gen.Pre_finite_inputs
import proofs.«141521_j81965155877406_2_alg».proof.Proof.Gen.ReferenceIdeal.Run
import proofs.«141521_j81965155877406_2_alg».proof.Proof.Gen.ReferenceIdeal.Read
import proofs.«141521_j81965155877406_2_alg».proof.Proof.KernelValue
import proofs.«141521_j81965155877406_2_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the coordinate array, both idealized programs end with their result buffers at
    `Cert.Harmonics.result` of that array. -/
theorem algebraic : Cert.algebraic_KernelIdeal_ReferenceIdeal := by
  intro m ρ m' ρ' _ hagree
  refine ⟨fun c => Cert.Harmonics.result (m ((c.tc : Thread Cert.KernelIdeal.nD Cert.KernelIdeal.τ).loc Cert.KernelIdeal.main_arg0)),
    Cert.KernelIdeal.Harm.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.ReferenceIdeal.Harm.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
